-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x2 .f32) (main_arg4 : FVec F S2 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x2 : Shape := ⟨2, ![100000, 2]⟩
abbrev S10000x2 : Shape := ⟨2, ![10000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 103
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x2, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x2, .f32⟩
  | .hbm, ⟨79, _⟩ => ⟨S1700000x2, .f32⟩
  | .hbm, ⟨80, _⟩ => ⟨S1700000x2, .f32⟩
  | .hbm, ⟨81, _⟩ => ⟨S_, .f32⟩
  | .hbm, ⟨82, _⟩ => ⟨S100000x2, .f32⟩
  | .hbm, ⟨83, _⟩ => ⟨S1700000x1, .i32⟩
  | .hbm, ⟨84, _⟩ => ⟨S100000x2, .f32⟩
  | .hbm, ⟨85, _⟩ => ⟨S1x2, .f32⟩
  | .hbm, ⟨86, _⟩ => ⟨S100000x2, .f32⟩
  | .hbm, ⟨87, _⟩ => ⟨S100000x2, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x2, .f32⟩
  | .hbm, ⟨95, _⟩ => ⟨S100000x2, .f32⟩
  | .hbm, ⟨96, _⟩ => ⟨S100000x2, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x1, .f32⟩
  | .hbm, ⟨101, _⟩ => ⟨S100000x2, .f32⟩
  | .hbm, ⟨102, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x2, .f32⟩
  | .local _ .vmem, ⟨8, _⟩ => ⟨S10000x2, .f32⟩
  | .local _ .vmem, ⟨9, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_call2_cst_0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_cst_1 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_v64 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x2_S128x2_0_0 : ∀ a, (![0, 0] : Fin 2 → Nat) a + S128x2.size a ≤ S128x2.size a
  h_S128x2 : 0 < S128x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x2_S10000x2_1_0_0_1_n_n_wf : DotDims.WF S10000x128 S128x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S100000x2.size a
  hwx1_2 : ∀ i : grid1.Coords, EltTy.bits .f32 = 32 ∨ (Rect.block (s := S100000x2) S10000x2.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x2, .f32⟩
  | 4 => ⟨S2, .f32⟩
  | 5 => ⟨S2x1600000, .i32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x2, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x2, .f32⟩
  | 112 => ⟨S1700000x1, .f32⟩
  | 113 => ⟨S1700000x2, .f32⟩
  | 114 => ⟨S1700000x2, .f32⟩
  | 115 => ⟨S_, .f32⟩
  | 116 => ⟨S100000x2, .f32⟩
  | 117 => ⟨S1700000x1, .i32⟩
  | 118 => ⟨S100000x2, .f32⟩
  | 119 => ⟨S1x2, .f32⟩
  | 120 => ⟨S100000x2, .f32⟩
  | 121 => ⟨S100000x2, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x2, .f32⟩
  | 1 => ⟨S100000x2, .f32⟩
  | 2 => ⟨S100000x2, .f32⟩
  | 3 => ⟨S_, .f32⟩
  | 4 => ⟨S100000, .f32⟩
  | 5 => ⟨S100000x1, .f32⟩
  | 6 => ⟨S100000x1, .f32⟩
  | 7 => ⟨S100000x2, .f32⟩
  | 8 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run with its result named.

  The program is nine segments: three stretches of host operations, the first pipelined matrix product, two stretches,
  the second pipelined matrix product, two stretches. The buffer contents at each boundary are a fold through the
  segments from the launch memory (a stretch applies its operations; a pipelined region leaves each of its arrays at
  what its write-backs leave and every other buffer alone). Launched from any memory, every weakly fair execution
  terminates, and in every final state each unscoped buffer holds the last boundary's contents: in particular the
  result buffer does, and each argument buffer holds what it was launched with.
-/
import proofs.«121870_j36825049596435_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents of
    the last boundary of the fold through the segments, and the six arguments end as launched. -/
theorem run_named : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunV

end
-- ==== Proof.SpecKernel.lean ====
/-
  The two-layer graph convolution as functions of whole arrays (vocabulary of the idealized kernel program).

  The edge list e : [2, E] gives source row e[0] and target row e[1]; one self-loop per node is appended to each,
  giving index vectors s, d of length E + N.  A node's degree counts the edges that target it,
      deg = scatter-add of ones at d,      dinv = (deg > 0 ? deg^(-1/2) : 0),
  and every edge carries the weight  norm = dinv[s] * dinv[d]  (negative indices wrapped by N, as indexing does).
  One convolution of projected features xw with bias b is
      conv xw = scatter-add at d of (xw[s] * norm) + b,
  the first layer is relu (conv (x·W1)), the second log_softmax (conv (h·W2)) along the two classes:
      log_softmax z = (z - max z) - log (sum (exp (z - max z))).
  Nothing here reads an element: the functions are compositions of the host's whole-array operations.
-/
import proofs.«121870_j36825049596435_1_alg».proof.Proof.Gen.KernelIdeal
import Idealize.ShloMosaic.PureOps.Ideal

noncomputable section

namespace Cert.KernelIdeal.Spec

open Cert.KernelIdeal Cert.KernelIdeal.Gen Idealize.ShloMosaic

/-- Contents of a buffer of shape `s` and element type `e` over the extended reals. -/
abbrev A (s : Shape) (e : EltTy) : Type := (⟨s, e⟩ : BufTy).Contents (Elt Ideal)

/-- Source node of every edge: row 0 of the edge list, then the nodes themselves (the self-loops). -/
def srcIdx (e : A S2x1600000 .i32) : A S1700000 .i32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Target node of every edge: row 1 of the edge list, then the nodes themselves. -/
def dstIdx (e : A S2x1600000 .i32) : A S1700000 .i32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- An index vector as a column. -/
def col (v : A S1700000 .i32) : A S1700000x1 .i32 :=
  broadcastInDim S1700000x1 ![0] bcast_S1700000_S1700000x1_0 v

/-- An index vector with its negative entries moved up by the number of nodes, as a column. -/
def wrap (v : A S1700000 .i32) : A S1700000x1 .i32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- In-degree of every node: one for each edge that targets it. -/
def deg (d : A S1700000 .i32) : A S100000 .f32 :=
  Host.scatterAdd (F := Ideal) scatter_S100000_S1700000x1_S1700000_n_0_0_1
    (broadcastInDim S100000 ![] bcast_S_S100000 (constant (F := Ideal) S_ .f32 0x00000000#32))
    (col d)
    (broadcastInDim S1700000 ![] bcast_S_S1700000 (constant (F := Ideal) S_ .f32 0x3F800000#32))

/-- deg^(-1/2) where the degree is positive, zero elsewhere. -/
def dinv (d : A S1700000 .i32) : A S100000 .f32 :=
  select (cmpf (F := Ideal) (φ := .f32) .ogt (deg d) (broadcastInDim S100000 ![] bcast_S_S100000 (constant (F := Ideal) S_ .f32 0x00000000#32)))
    (Host.rsqrt (F := Ideal) (φ := .f32) (deg d))
    (broadcastInDim S100000 ![] bcast_S_S100000 (id (constant (F := Ideal) S_ .f32 0x00000000#32)))

/-- The weight of every edge: dinv at its source times dinv at its target. -/
def norm (s d : A S1700000 .i32) : A S1700000 .f32 :=
  mulf (F := Ideal) (φ := .f32) (Host.gather gather_S100000_S1700000x1_S1700000_n_0_n_n_0_1_1 (dinv d) (wrap s))
    (Host.gather gather_S100000_S1700000x1_S1700000_n_0_n_n_0_1_1 (dinv d) (wrap d))

/-- The edge weights as a column. -/
def normCol (s d : A S1700000 .i32) : A S1700000x1 .f32 :=
  broadcastInDim S1700000x1 ![0] bcast_S1700000_S1700000x1_0 (norm s d)

/-- One convolution over 128 features: gather the projected rows at the sources, scale by the edge weights,
    add them up at the targets, add the bias row. -/
def conv128 (xw : A S100000x128 .f32) (s d : A S1700000 .i32) (n : A S1700000x1 .f32) (b : A S128 .f32) : A S100000x128 .f32 :=
  addf (F := Ideal) (φ := .f32)
    (Host.scatterAdd (F := Ideal) scatter_S100000x128_S1700000x1_S1700000x128_1_0_0_1
      (broadcastInDim S100000x128 ![] bcast_S_S100000x128 (constant (F := Ideal) S_ .f32 0x00000000#32))
      (col d)
      (mulf (F := Ideal) (φ := .f32) (Host.gather gather_S100000x128_S1700000x1_S1700000x128_1_0_n_n_0_1_1128 xw (wrap s))
        (broadcastInDim S1700000x128 ![0, 1] bcast_S1700000x1_S1700000x128_0_1 n)))
    (broadcastInDim S100000x128 ![0, 1] bcast_S1x128_S100000x128_0_1 (broadcastInDim S1x128 ![1] bcast_S128_S1x128_1 b))

/-- max(z, 0). -/
def relu (z : A S100000x128 .f32) : A S100000x128 .f32 :=
  maximumf (F := Ideal) (φ := .f32) z (broadcastInDim S100000x128 ![] bcast_S_S100000x128 (constant (F := Ideal) S_ .f32 0x00000000#32))

/-- The same convolution over the 2 classes. -/
def conv2 (hw : A S100000x2 .f32) (s d : A S1700000 .i32) (n : A S1700000x1 .f32) (b : A S2 .f32) : A S100000x2 .f32 :=
  addf (F := Ideal) (φ := .f32)
    (Host.scatterAdd (F := Ideal) scatter_S100000x2_S1700000x1_S1700000x2_1_0_0_1
      (broadcastInDim S100000x2 ![] bcast_S_S100000x2 (constant (F := Ideal) S_ .f32 0x00000000#32))
      (col d)
      (mulf (F := Ideal) (φ := .f32) (Host.gather gather_S100000x2_S1700000x1_S1700000x2_1_0_n_n_0_1_12 hw (wrap s))
        (broadcastInDim S1700000x2 ![0, 1] bcast_S1700000x1_S1700000x2_0_1 n)))
    (broadcastInDim S100000x2 ![0, 1] bcast_S1x2_S100000x2_0_1 (broadcastInDim S1x2 ![1] bcast_S2_S1x2_1 b))

/-- z minus its row maximum (the maximum taken from -inf, and once more against -inf). -/
def centered (z : A S100000x2 .f32) : A S100000x2 .f32 :=
  subf (F := Ideal) (φ := .f32) z
    (broadcastInDim S100000x2 ![0, 1] bcast_S100000x1_S100000x2_0_1
      (broadcastInDim S100000x1 ![0] bcast_S100000_S100000x1_0
        (maximumf (F := Ideal) (φ := .f32) (broadcastInDim S100000 ![] bcast_S_S100000 (constant (F := Ideal) S_ .f32 0xFF800000#32))
          (Host.reduce FloatOps.maximumf z (constant (F := Ideal) S_ .f32 0xFF800000#32) reducesTo_S100000x2_S100000_d1 h_S_))))

/-- log_softmax along the classes. -/
def logSoftmax (z : A S100000x2 .f32) : A S100000x2 .f32 :=
  subf (F := Ideal) (φ := .f32) (centered z)
    (broadcastInDim S100000x2 ![0, 1] bcast_S100000x1_S100000x2_0_1
      (Host.log (F := Ideal) (φ := .f32)
        (broadcastInDim S100000x1 ![0] bcast_S100000_S100000x1_0
          (Host.reduceAdd (Host.exp (F := Ideal) (φ := .f32) (centered z)) (constant (F := Ideal) S_ .f32 0x00000000#32) reducesTo_S100000x2_S100000_d1 h_S_))))

/-- The first layer after its projection: relu of the convolution. -/
def layer1 (xw : A S100000x128 .f32) (e : A S2x1600000 .i32) (b : A S128 .f32) : A S100000x128 .f32 :=
  relu (conv128 xw (srcIdx e) (dstIdx e) (normCol (srcIdx e) (dstIdx e)) b)

/-- The second layer after its projection: log_softmax of the convolution. -/
def layer2 (hw : A S100000x2 .f32) (e : A S2x1600000 .i32) (b : A S2 .f32) : A S100000x2 .f32 :=
  logSoftmax (conv2 hw (srcIdx e) (dstIdx e) (normCol (srcIdx e) (dstIdx e)) b)

end Cert.KernelIdeal.Spec

end
-- ==== Proof.LibStretches.lean ====
/-
  A straight line of host operations read stretch by stretch, and contents carried to a typed reference and back.

  The buffer contents after a line of operations are a fold of the operations' results over the contents it starts
  from. Cut the line in two: the contents after the whole line are the fold over the second stretch of the contents
  after the first. A long line is read this way one stretch at a time, each stretch from what the one before left, a
  buffer a stretch does not write keeping its contents.

  Inside a function the program calls, a buffer is reached through a reference that carries its tensor type; contents
  are moved to the buffer's own type along an equation of types and back along its inverse. There and back is the
  identity, whatever the reference: with the pairs removed this way, a read-back of such a function's operations
  compares with a plain term without unfolding any operation.
-/
import Idealize.ShloMosaic.Lib.StableHlo.Run

namespace Cert.LibStretches

open Idealize.ShloMosaic Idealize.ShloMosaic.StableHlo

variable {τ : Topo} {sig : RefSig} {Val : EltTy → Type}

/-- The contents after two stretches run in turn: the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried to a typed reference's buffer and back are the contents. -/
theorem ofBuf_toBuf {T : BufTy} (x : TRef sig T) (v : T.Contents Val) : x.ofBuf (x.toBuf v) = v := by
  obtain ⟨r, h, _, _⟩ := x
  subst h
  rfl

/-- Contents carried from a typed reference's buffer and back to it are the contents. -/
theorem toBuf_ofBuf {T : BufTy} (x : TRef sig T) (v : x.ref.ty.Contents Val) : x.toBuf (x.ofBuf v) = v := by
  obtain ⟨r, h, _, _⟩ := x
  subst h
  rfl

end Cert.LibStretches
-- ==== Proof.LibJoinCongr.lean ====
/-
  A two-piece concatenate depends on its pieces only through their contents.

  The side condition of a concatenate speaks of the list of the pieces' shapes, which it reads off the list of pieces;
  so a rewriting pass cannot replace a piece by an equal one inside the list without also moving the side condition.
  The shapes do not change when a piece's contents are replaced, so the same side condition serves, and the two
  concatenates are equal. Stated as a congruence rule, it lets a simplifier pass rewrite inside the two pieces.
-/
import Idealize.ShloMosaic.PureOps.ShapeOps

namespace Cert.LibJoinCongr

open Idealize.ShloMosaic

/-- Equal first pieces and equal second pieces give equal two-piece concatenates (under the same side condition). -/
@[congr] theorem concat2_congr {α : Type} {t : Shape} {a : Fin t.rank} {s₁ s₂ : Shape} {u u' : s₁.Idx → α} {v v' : s₂.Idx → α}
    (h : Shape.Concatenates (([⟨s₁, u⟩, ⟨s₂, v⟩] : List ((s : Shape) × (s.Idx → α))).map (·.1)) t a)
    (hu : u = u') (hv : v = v') :
    concatenate t a [⟨s₁, u⟩, ⟨s₂, v⟩] h = concatenate t a [⟨s₁, u'⟩, ⟨s₂, v'⟩] h := by
  subst hu hv; rfl

end Cert.LibJoinCongr
-- ==== Proof.LibFoldReads.lean ====
/-
  Reading buffers through a straight line of host operations.

  The buffer contents after a line of operations are a fold over the operations: each operation's result at its own
  buffer is its function of its operands' contents, and at any other buffer what was there before. The tactic below
  rewrites a read of the fold, outermost operation first, until only reads of the starting contents are left; the
  inequalities of buffer references are decided. Lemmas given in the brackets are added to the rewriting set (the
  names of the operation lists to open, facts about what a region leaves, earlier reads).
-/
import Idealize.ShloMosaic.Lib.StableHlo.Run

namespace Cert.LibFoldReads

open Idealize.ShloMosaic Idealize.ShloMosaic.StableHlo

/-- Read buffers through stretches of host operations: each operation's result at its own buffer is its function of
    its operands' contents, and at any other buffer what was there. -/
syntax "fold_reads" "[" Lean.Parser.Tactic.simpLemma,* "]" : tactic
macro_rules
  | `(tactic| fold_reads [$ls,*]) =>
    `(tactic| simp (disch := decide) only [after_cons, after_nil, nullary_result', unary_result', binary_result', ternary_result',
        reshape_result', nullary_result_ne', unary_result_ne', binary_result_ne', ternary_result_ne', reshape_result_ne', $ls,*])

end Cert.LibFoldReads
-- ==== Proof.LibKeepThrough.lean ====
/-
  A buffer that a stretch of host operations does not write keeps its contents through the stretch.

  The contents after a line of operations differ from the contents before only at the operations' result buffers. The
  tactic below proves one such step: the buffer read is none of the line's result buffers, each inequality of buffer
  references decided.
-/
import Idealize.ShloMosaic.Lib.StableHlo.Run

namespace Cert.LibKeepThrough

open Idealize.ShloMosaic

/-- The contents of a buffer after a named stretch of operations are its contents before, when no operation of the
    stretch writes it. -/
syntax "host_keep " ident : tactic
macro_rules
  | `(tactic| host_keep $ops:ident) =>
    `(tactic| (
      refine StableHlo.after_of_forall_not_mem _ _ (List.forall_iff_forall_mem.mp ?_)
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

end Cert.LibKeepThrough
-- ==== Proof.KernelHost.lean ====
/-
  The idealized kernel's stretches of host operations, read as whole-array functions.

  Before the first matrix product the host builds the edge index vectors (with self-loops) and the column of edge
  weights; between the two products it runs the first convolution on the product it was handed, adds the bias and
  rectifies; after the second product it runs the second convolution and log_softmax. Each stretch is read from
  ARBITRARY starting contents: the buffers it computes as the specification's functions of the buffers it reads,
  the buffers it does not write as they were.
-/
import proofs.«121870_j36825049596435_1_alg».proof.Proof.Gen.KernelIdeal.Frame
import proofs.«121870_j36825049596435_1_alg».proof.Proof.SpecKernel
import proofs.«121870_j36825049596435_1_alg».proof.Proof.LibStretches
import proofs.«121870_j36825049596435_1_alg».proof.Proof.LibJoinCongr
import proofs.«121870_j36825049596435_1_alg».proof.Proof.LibFoldReads
import proofs.«121870_j36825049596435_1_alg».proof.Proof.LibKeepThrough

set_option maxRecDepth 16384

noncomputable section

namespace Cert.KernelIdeal.HostValue

open Cert.KernelIdeal Cert.KernelIdeal.Gen Cert.KernelIdeal.Spec
open Idealize.ShloMosaic Idealize.ShloMosaic.TcCoe Idealize.ShloMosaic.StableHlo Idealize.SL.Sem
open Cert.LibStretches Cert.LibFoldReads Cert.LibKeepThrough

variable (V : Valuation τ sig (Elt Ideal))

/-! ## Contents carried across a call boundary

A buffer the caller writes and a called function reads through its typed reference (or the other way round) carries its
contents along an equation of buffer types that holds by computation: the transport is the identity. -/

theorem ofBuf_main_cst_2 (p1 p2 p3) (v : (⟨S_, .f32⟩ : BufTy).Contents (Elt Ideal)) :
    (TRef.of (sig := sig) (T := ⟨S_, .f32⟩) main_cst_2 p1 p2 p3).ofBuf v = v := rfl
theorem ofBuf_main_v12 (p1 p2 p3) (v : (⟨S100000, .i1⟩ : BufTy).Contents (Elt Ideal)) :
    (TRef.of (sig := sig) (T := ⟨S100000, .i1⟩) main_v12 p1 p2 p3).ofBuf v = v := rfl
theorem ofBuf_main_v13 (p1 p2 p3) (v : (⟨S100000, .f32⟩ : BufTy).Contents (Elt Ideal)) :
    (TRef.of (sig := sig) (T := ⟨S100000, .f32⟩) main_v13 p1 p2 p3).ofBuf v = v := rfl
theorem toBuf_main_v14 (p1 p2 p3) (v : (⟨S100000, .f32⟩ : BufTy).Contents (Elt Ideal)) :
    (TRef.of (sig := sig) (T := ⟨S100000, .f32⟩) main_v14 p1 p2 p3).toBuf v = v := rfl
theorem ofBuf_main_v46 (p1 p2 p3) (v : (⟨S100000x128, .f32⟩ : BufTy).Contents (Elt Ideal)) :
    (TRef.of (sig := sig) (T := ⟨S100000x128, .f32⟩) main_v46 p1 p2 p3).ofBuf v = v := rfl
theorem toBuf_main_v47 (p1 p2 p3) (v : (⟨S100000x128, .f32⟩ : BufTy).Contents (Elt Ideal)) :
    (TRef.of (sig := sig) (T := ⟨S100000x128, .f32⟩) main_v47 p1 p2 p3).toBuf v = v := rfl
theorem ofBuf_main_v63 (p1 p2 p3) (v : (⟨S100000x2, .f32⟩ : BufTy).Contents (Elt Ideal)) :
    (TRef.of (sig := sig) (T := ⟨S100000x2, .f32⟩) main_v63 p1 p2 p3).ofBuf v = v := rfl
theorem toBuf_main_v64 (p1 p2 p3) (v : (⟨S100000x2, .f32⟩ : BufTy).Contents (Elt Ideal)) :
    (TRef.of (sig := sig) (T := ⟨S100000x2, .f32⟩) main_v64 p1 p2 p3).toBuf v = v := rfl

/-! ## Before the first product -/

/-- The three stretches before the first product, as one fold. -/
abbrev stageA : Valuation τ sig (Elt Ideal) := after (hostOps0_2 (F := Ideal)) (after hostOps0_1 (after hostOps0 V))

theorem stageA_src : stageA V (Proc.devRef .tc main_v3) = srcIdx (V (Proc.devRef .tc main_arg5)) := by
  fold_reads [hostOps0, hostOps0_1, hostOps0_2, ofBuf_toBuf, toBuf_ofBuf, ofBuf_main_cst_2, ofBuf_main_v12, ofBuf_main_v13, toBuf_main_v14]
  rfl

theorem stageA_dst : stageA V (Proc.devRef .tc main_v6) = dstIdx (V (Proc.devRef .tc main_arg5)) := by
  fold_reads [hostOps0, hostOps0_1, hostOps0_2, ofBuf_toBuf, toBuf_ofBuf, ofBuf_main_cst_2, ofBuf_main_v12, ofBuf_main_v13, toBuf_main_v14]
  rfl

theorem stageA_weights : stageA V (Proc.devRef .tc main_v30)
    = normCol (srcIdx (V (Proc.devRef .tc main_arg5))) (dstIdx (V (Proc.devRef .tc main_arg5))) := by
  fold_reads [hostOps0, hostOps0_1, hostOps0_2, ofBuf_toBuf, toBuf_ofBuf, ofBuf_main_cst_2, ofBuf_main_v12, ofBuf_main_v13, toBuf_main_v14]
  rfl

theorem stageA_arg0 : stageA V (Proc.devRef .tc main_arg0) = V (Proc.devRef .tc main_arg0) := by
  fold_reads [hostOps0, hostOps0_1, hostOps0_2]
theorem stageA_arg1 : stageA V (Proc.devRef .tc main_arg1) = V (Proc.devRef .tc main_arg1) := by
  fold_reads [hostOps0, hostOps0_1, hostOps0_2]
theorem stageA_arg2 : stageA V (Proc.devRef .tc main_arg2) = V (Proc.devRef .tc main_arg2) := by
  fold_reads [hostOps0, hostOps0_1, hostOps0_2]
theorem stageA_arg3 : stageA V (Proc.devRef .tc main_arg3) = V (Proc.devRef .tc main_arg3) := by
  fold_reads [hostOps0, hostOps0_1, hostOps0_2]
theorem stageA_arg4 : stageA V (Proc.devRef .tc main_arg4) = V (Proc.devRef .tc main_arg4) := by
  fold_reads [hostOps0, hostOps0_1, hostOps0_2]

/-! ## Between the two products -/

/-- The two stretches between the products, as one fold. -/
abbrev stageB : Valuation τ sig (Elt Ideal) := after (hostOps1_1 (F := Ideal)) (after hostOps1 V)

theorem stageB_hidden : stageB V (Proc.devRef .tc main_v47)
    = relu (conv128 (V (Proc.devRef .tc main_v31)) (V (Proc.devRef .tc main_v3)) (V (Proc.devRef .tc main_v6)) (V (Proc.devRef .tc main_v30)) (V (Proc.devRef .tc main_arg2))) := by
  fold_reads [hostOps1, hostOps1_1, ofBuf_toBuf, toBuf_ofBuf, ofBuf_main_v46, toBuf_main_v47]
  rfl

theorem stageB_src : stageB V (Proc.devRef .tc main_v3) = V (Proc.devRef .tc main_v3) := by fold_reads [hostOps1, hostOps1_1]
theorem stageB_dst : stageB V (Proc.devRef .tc main_v6) = V (Proc.devRef .tc main_v6) := by fold_reads [hostOps1, hostOps1_1]
theorem stageB_weights : stageB V (Proc.devRef .tc main_v30) = V (Proc.devRef .tc main_v30) := by fold_reads [hostOps1, hostOps1_1]
theorem stageB_arg3 : stageB V (Proc.devRef .tc main_arg3) = V (Proc.devRef .tc main_arg3) := by fold_reads [hostOps1, hostOps1_1]
theorem stageB_arg4 : stageB V (Proc.devRef .tc main_arg4) = V (Proc.devRef .tc main_arg4) := by fold_reads [hostOps1, hostOps1_1]

/-! ## After the second product -/

/-- The two stretches after the second product, as one fold. -/
abbrev stageC : Valuation τ sig (Elt Ideal) := after (hostOps2_1 (F := Ideal)) (after hostOps2 V)

theorem stageC_out : stageC V (Proc.devRef .tc main_v64)
    = logSoftmax (conv2 (V (Proc.devRef .tc main_v48)) (V (Proc.devRef .tc main_v3)) (V (Proc.devRef .tc main_v6)) (V (Proc.devRef .tc main_v30)) (V (Proc.devRef .tc main_arg4))) := by
  fold_reads [hostOps2, hostOps2_1, ofBuf_toBuf, toBuf_ofBuf, ofBuf_main_v63, toBuf_main_v64]
  rfl

end Cert.KernelIdeal.HostValue

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.LibWholeProduct.lean ====
/-
  A plain matrix product as ONE function of whole arrays, over the extended reals.

  For x : [M, K] and w : [K, N] the product is the array  (x · w)(p, q) = Σ_k x(p, k) · w(k, q).  The device's
  product into the zero accumulator and the host's product are both this array: each is the exact finite sum over
  the contracted coordinate at every entry, so as functions of whole arrays they coincide — whatever the float
  formats of the operands, which at the ideal instance all denote extended reals.
-/
import proofs.«121870_j36825049596435_1_alg».proof.Proof.LibPlainDot

noncomputable section

namespace Cert.LibWholeProduct

open Idealize.ShloMosaic Idealize.ShloMosaic.ValueIdx

variable {M K N : ℕ}

/-- The product array: entry (p, q) is the sum over k of x(p, k) · w(k, q). -/
def product {φ₁ φ₂ : FTy} (x : FVec Ideal ⟨2, ![M, K]⟩ φ₁) (w : FVec Ideal ⟨2, ![K, N]⟩ φ₂) : FVec Ideal ⟨2, ![M, N]⟩ .f32 :=
  fun i => ∑ k : Fin K, x (ix2 (i 0) k) * w (ix2 k (i 1))

/-- The product array read at (p, q). -/
theorem product_apply {φ₁ φ₂ : FTy} (x : FVec Ideal ⟨2, ![M, K]⟩ φ₁) (w : FVec Ideal ⟨2, ![K, N]⟩ φ₂) (p : Fin M) (q : Fin N) :
    product x w (ix2 p q) = ∑ k : Fin K, x (ix2 p k) * w (ix2 k q) := rfl

/-- A row of the product reads only that row of the left operand (and a column only that column of the right one): if
    row i'₀ of x' is row i₀ of x and column i'₁ of w' is column i₁ of w, then (x' · w')(i') = (x · w)(i). -/
theorem product_row {M' : ℕ} {φ₁ φ₂ : FTy} (x : FVec Ideal ⟨2, ![M, K]⟩ φ₁) (x' : FVec Ideal ⟨2, ![M', K]⟩ φ₁)
    (w w' : FVec Ideal ⟨2, ![K, N]⟩ φ₂) (i : (⟨2, ![M, N]⟩ : Shape).Idx) (i' : (⟨2, ![M', N]⟩ : Shape).Idx)
    (hx : ∀ k : Fin K, x' (ix2 (i' 0) k) = x (ix2 (i 0) k)) (hw : ∀ k : Fin K, w' (ix2 k (i' 1)) = w (ix2 k (i 1))) :
    product x' w' i' = product x w i :=
  Finset.sum_congr rfl fun k _ => by rw [hx k, hw k]

/-- The device's plain product into the zero accumulator is the product array. -/
theorem matmul_zero_eq {φ₁ φ₂ : FTy} (prec : Option ContractPrecision)
    (x : FVec Ideal ⟨2, ![M, K]⟩ φ₁) (w : FVec Ideal ⟨2, ![K, N]⟩ φ₂) :
    matmul (DotDims.plain M K N) prec x w (constant (F := Ideal) ⟨2, ![M, N]⟩ .f32 0x00000000#32) = product x w := by
  funext i
  obtain ⟨p, q, rfl⟩ : ∃ (p : Fin M) (q : Fin N), i = ix2 p q := ⟨i 0, i 1, eq_ix2 i⟩
  exact Cert.LibPlainDot.matmul_zero_apply prec x w p q

/-- The host's plain product is the product array. -/
theorem hostDot_eq {φ₁ φ₂ : FTy} (prec : Option ContractPrecision)
    (x : FVec Ideal ⟨2, ![M, K]⟩ φ₁) (w : FVec Ideal ⟨2, ![K, N]⟩ φ₂) :
    Host.dotGeneral (DotDims.plain M K N) prec x w = product x w := by
  funext i
  obtain ⟨p, q, rfl⟩ : ∃ (p : Fin M) (q : Fin N), i = ix2 p q := ⟨i 0, i 1, eq_ix2 i⟩
  exact Cert.LibPlainDot.hostDot_apply prec x w p q

end Cert.LibWholeProduct

end
-- ==== Proof.RegionProduct.lean ====
/-
  The two pipelined matrix products of the idealized kernel, read as whole arrays.

  Each region walks ten grid points; point t stages rows 10000·t … 10000·t + 9999 of the left operand and the whole
  right operand, multiplies them on the matrix unit into a zero accumulator, and writes the block back to the same
  rows of the result. A row of a block's product reads only that row of the left operand, so block t of the result
  is block t of the product of the WHOLE arrays; the ten blocks tile the result, so after the region the result
  array IS the product of the two operand arrays as the region found them.
-/
import proofs.«121870_j36825049596435_1_alg».proof.Proof.Gen.KernelIdeal.Frame
import proofs.«121870_j36825049596435_1_alg».proof.Proof.LibWholeProduct
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.LibWholeProduct
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first product: [100000, 128] by [128, 128], ten blocks of 10000 rows -/

/-- The body's store is the product of the two blocks it loads (the rounding to bf16 on the way into the matrix unit
    and a cast to the same shape are the identity over the extended reals). -/
theorem body0_eq (x0 : Vec Ideal S10000x128 .f32) (x1 : Vec Ideal S128x128 .f32) :
    k0_pay1 x0 x1 = product (M := 10000) (K := 128) (N := 128) (φ₁ := .f32) (φ₂ := .f32) x0 x1 := by
  funext i
  obtain ⟨p, q, rfl⟩ : ∃ (p : Fin 10000) (q : Fin 128), i = ix2 p q := ⟨i 0, i 1, eq_ix2 i⟩
  unfold k0_pay1
  exact Cert.LibPlainDot.matmul_zero_apply (M := 10000) (K := 128) (N := 128) none
    (truncf .bf16 x0 bitsLt_bf16_f32) (truncf .bf16 x1 bitsLt_bf16_f32) p q

/-- The printed index maps over the grid: point t takes row block t of the left operand and of the result, and the
    whole right operand. -/
theorem maps0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every row block of the result is some point's. -/
theorem onto0 : ∀ b : Fin 10, ∃ t : Fin cfg0.N, win0_2.index t (0 : Fin 2) = b.val ∧ win0_2.index t (1 : Fin 2) = 0 :=
  (by decide +kernel : ∀ b : Fin 10, ∃ t : Fin grid0.N, win0_2.index t (0 : Fin 2) = b.val ∧ win0_2.index t (1 : Fin 2) = 0)

/-- What point t writes back is block t of the product of the two operand arrays as the region finds them: a row of
    the block reads that row of the left operand and every row of the right one. -/
theorem flushed0_eq (c : Dev nD) (t : Fin cfg0.N) :
    (dat0 V c).flushed 2 t = ((cfg0.win 2).blk t).view.read (Elt Ideal)
      (product (M := 100000) (K := 128) (N := 128) (φ₁ := .f32) (φ₂ := .f32) (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [body0_eq]
  obtain ⟨e0, e1, e2, e3, e4⟩ := maps0 t
  funext j
  have h0 : ∀ k : Fin 128, iblk0 V c 0 t (ix2 (j 0) k) = V c main_arg0 (ix2 ((((cfg0.win 2).blk t).view.emb j) 0) k) := fun k => by
    show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ∀ k : Fin 128, iblk0 V c 1 t (ix2 k (j 1)) = V c main_arg1 (ix2 k ((((cfg0.win 2).blk t).view.emb j) 1)) := fun k => by
    show V c main_arg1 (((cfg0.win 1).blk t).view.emb (ix2 k (j 1))) = V c main_arg1 (ix2 k ((((cfg0.win 2).blk t).view.emb j) 1))
    refine congrArg (V c main_arg1) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact product_row (M := 100000) (M' := 10000) (K := 128) (N := 128) (φ₁ := .f32) (φ₂ := .f32)
    (V c main_arg0) (iblk0 V c 0 t) (V c main_arg1) (iblk0 V c 1 t) (((cfg0.win 2).blk t).view.emb j) j h0 h1

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- The ten blocks tile the result array: row r lies in block r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := onto0 ⟨(i 0).val / 10000, by omega⟩
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; simp only at q0; omega
  | ⟨1, _⟩ => show win0_2.index t (1 : Fin 2) * 128 ≤ (i 1).val ∧ (i 1).val < win0_2.index t (1 : Fin 2) * 128 + 128; omega

/-- THE RESULT ARRAY after the region: the product of the two operand arrays as the region finds them. -/
theorem result0 (c : Dev nD) :
    (dat0 V c).arrAt 2 cfg0.N
      = product (M := 100000) (K := 128) (N := 128) (φ₁ := .f32) (φ₂ := .f32) (V c main_arg0) (V c main_arg1) :=
  (dat0 V c).arrAt_eq_of_cover 2 _ (fun t _ => flushed0_eq V c t) (cover0)

/-! ## The second product: [100000, 128] by [128, 2], ten blocks of 10000 rows -/

/-- The body's store is the product of the two blocks it loads (the rounding to bf16 on the way into the matrix unit
    and a cast to the same shape are the identity over the extended reals). -/
theorem body1_eq (x0 : Vec Ideal S10000x128 .f32) (x1 : Vec Ideal S128x2 .f32) :
    k1_pay1 x0 x1 = product (M := 10000) (K := 128) (N := 2) (φ₁ := .f32) (φ₂ := .f32) x0 x1 := by
  funext i
  obtain ⟨p, q, rfl⟩ : ∃ (p : Fin 10000) (q : Fin 2), i = ix2 p q := ⟨i 0, i 1, eq_ix2 i⟩
  unfold k1_pay1
  rw [shapeCast_self]
  exact Cert.LibPlainDot.matmul_zero_apply (M := 10000) (K := 128) (N := 2) none
    (truncf .bf16 x0 bitsLt_bf16_f32) (truncf .bf16 x1 bitsLt_bf16_f32) p q

/-- The printed index maps over the grid: point t takes row block t of the left operand and of the result, and the
    whole right operand. -/
theorem maps1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every row block of the result is some point's. -/
theorem onto1 : ∀ b : Fin 10, ∃ t : Fin cfg1.N, win1_2.index t (0 : Fin 2) = b.val ∧ win1_2.index t (1 : Fin 2) = 0 :=
  (by decide +kernel : ∀ b : Fin 10, ∃ t : Fin grid1.N, win1_2.index t (0 : Fin 2) = b.val ∧ win1_2.index t (1 : Fin 2) = 0)

/-- What point t writes back is block t of the product of the two operand arrays as the region finds them: a row of
    the block reads that row of the left operand and every row of the right one. -/
theorem flushed1_eq (c : Dev nD) (t : Fin cfg1.N) :
    (dat1 V c).flushed 2 t = ((cfg1.win 2).blk t).view.read (Elt Ideal)
      (product (M := 100000) (K := 128) (N := 2) (φ₁ := .f32) (φ₂ := .f32) (V c main_v47) (V c main_arg3)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x2) hz]
  rw [body1_eq]
  obtain ⟨e0, e1, e2, e3, e4⟩ := maps1 t
  funext j
  have h0 : ∀ k : Fin 128, iblk1 V c 0 t (ix2 (j 0) k) = V c main_v47 (ix2 ((((cfg1.win 2).blk t).view.emb j) 0) k) := fun k => by
    show V c main_v47 (((cfg1.win 0).blk t).view.emb (ix2 (j 0) k)) = V c main_v47 (ix2 ((((cfg1.win 2).blk t).view.emb j) 0) k)
    refine congrArg (V c main_v47) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : ∀ k : Fin 128, iblk1 V c 1 t (ix2 k (j 1)) = V c main_arg3 (ix2 k ((((cfg1.win 2).blk t).view.emb j) 1)) := fun k => by
    show V c main_arg3 (((cfg1.win 1).blk t).view.emb (ix2 k (j 1))) = V c main_arg3 (ix2 k ((((cfg1.win 2).blk t).view.emb j) 1))
    refine congrArg (V c main_arg3) ?_
    funext a; apply Fin.ext
    match a with
    | ⟨0, _⟩ => show win1_1.index t (0 : Fin 2) * 128 + 1 * k.val = k.val; omega
    | ⟨1, _⟩ => show win1_1.index t (1 : Fin 2) * 2 + 1 * (j 1).val = win1_2.index t (1 : Fin 2) * 2 + 1 * (j 1).val; omega
  exact product_row (M := 100000) (M' := 10000) (K := 128) (N := 2) (φ₁ := .f32) (φ₂ := .f32)
    (V c main_v47) (iblk1 V c 0 t) (V c main_arg3) (iblk1 V c 1 t) (((cfg1.win 2).blk t).view.emb j) j h0 h1

/-- An index of the result array is in point t's block iff each coordinate is in the block's range on its axis. -/
theorem mem_blk1 (t : Fin cfg1.N) (i : S100000x2.Idx) :
    i ∈ ((cfg1.win 2).blk t).view.set ↔ ∀ a : Fin 2, win1_2.index t a * S10000x2.size a ≤ (i a).val ∧ (i a).val < win1_2.index t a * S10000x2.size a + S10000x2.size a := by
  show i ∈ ((View.whole main_v48).slice (win1_2.rect t)).set ↔ _
  rw [View.set_slice_whole, Rect.mem_set_unit]
  exact Iff.rfl

/-- The ten blocks tile the result array: row r lies in block r / 10000. -/
theorem cover1 (i : S100000x2.Idx) : ∃ t : Fin cfg1.N, (cfg1.win 2).flush t = true ∧ i ∈ ((cfg1.win 2).blk t).view.set := by
  have hi0 : (i 0).val < 100000 := (i 0).isLt
  have hi1 : (i 1).val < 2 := (i 1).isLt
  obtain ⟨t, q0, q1⟩ := onto1 ⟨(i 0).val / 10000, by omega⟩
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; simp only at q0; omega
  | ⟨1, _⟩ => show win1_2.index t (1 : Fin 2) * 2 ≤ (i 1).val ∧ (i 1).val < win1_2.index t (1 : Fin 2) * 2 + 2; omega

/-- THE RESULT ARRAY after the region: the product of the two operand arrays as the region finds them. -/
theorem result1 (c : Dev nD) :
    (dat1 V c).arrAt 2 cfg1.N
      = product (M := 100000) (K := 128) (N := 2) (φ₁ := .f32) (φ₂ := .f32) (V c main_v47) (V c main_arg3) :=
  (dat1 V c).arrAt_eq_of_cover 2 _ (fun t _ => flushed1_eq V c t) (cover1)

end Cert.KernelIdeal.RegionValue

end
-- ==== Proof.KernelValue.lean ====
/-
  The idealized kernel's result as ONE function of its arguments.

  Follow the fold through the nine segments from the launch memory. The first stretches leave the edge index vectors,
  the weight column and the untouched arguments; the first region leaves the product x · W1 in its result array and
  everything else alone; the middle stretches turn it into the hidden layer relu (conv (x · W1) + b1); the second
  region leaves hidden · W2; the last stretches turn that into log_softmax (conv (hidden · W2) + b2). Each step reads
  the buffers of the boundary before it, so the result buffer at the last boundary is the composition, a function of
  the six launched arguments alone.
-/
import proofs.«121870_j36825049596435_1_alg».proof.Proof.KernelHost
import proofs.«121870_j36825049596435_1_alg».proof.Proof.RegionProduct

set_option maxRecDepth 16384

noncomputable section

namespace Cert.KernelIdeal.WholeValue

open Cert.KernelIdeal Cert.KernelIdeal.Gen Cert.KernelIdeal.Spec Cert.KernelIdeal.HostValue Cert.KernelIdeal.RegionValue
open Cert.LibWholeProduct
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first region's entry -/

theorem entry0_src : W3 m ρ c (Proc.devRef .tc main_v3) = srcIdx (W0 m ρ c (Proc.devRef .tc main_arg5)) := stageA_src (W0 m ρ c)
theorem entry0_dst : W3 m ρ c (Proc.devRef .tc main_v6) = dstIdx (W0 m ρ c (Proc.devRef .tc main_arg5)) := stageA_dst (W0 m ρ c)
theorem entry0_weights : W3 m ρ c (Proc.devRef .tc main_v30) = (normCol (srcIdx (W0 m ρ c (Proc.devRef .tc main_arg5))) (dstIdx (W0 m ρ c (Proc.devRef .tc main_arg5)))) := stageA_weights (W0 m ρ c)
theorem entry0_arg0 : W3 m ρ c (Proc.devRef .tc main_arg0) = (W0 m ρ c (Proc.devRef .tc main_arg0)) := stageA_arg0 (W0 m ρ c)
theorem entry0_arg1 : W3 m ρ c (Proc.devRef .tc main_arg1) = (W0 m ρ c (Proc.devRef .tc main_arg1)) := stageA_arg1 (W0 m ρ c)
theorem entry0_arg2 : W3 m ρ c (Proc.devRef .tc main_arg2) = (W0 m ρ c (Proc.devRef .tc main_arg2)) := stageA_arg2 (W0 m ρ c)
theorem entry0_arg3 : W3 m ρ c (Proc.devRef .tc main_arg3) = (W0 m ρ c (Proc.devRef .tc main_arg3)) := stageA_arg3 (W0 m ρ c)
theorem entry0_arg4 : W3 m ρ c (Proc.devRef .tc main_arg4) = (W0 m ρ c (Proc.devRef .tc main_arg4)) := stageA_arg4 (W0 m ρ c)

/-! ## At the first region's exit -/

/-- The first region's result array holds x · W1. -/
theorem exit0_product : W4 m ρ c (Proc.devRef .tc main_v31) = (product (M := 100000) (K := 128) (N := 128) (φ₁ := .f32) (φ₂ := .f32) (W0 m ρ c (Proc.devRef .tc main_arg0)) (W0 m ρ c (Proc.devRef .tc main_arg1))) :=
  (W4_arr m ρ c 2).trans ((result0 (V3 m ρ) c).trans
    (congrArg₂ (product (M := 100000) (K := 128) (N := 128) (φ₁ := .f32) (φ₂ := .f32)) (entry0_arg0 m ρ c) (entry0_arg1 m ρ c)))

theorem exit0_src : W4 m ρ c (Proc.devRef .tc main_v3) = srcIdx (W0 m ρ c (Proc.devRef .tc main_arg5)) := (W4_of_ne m ρ c main_v3 (by decide)).trans (entry0_src m ρ c)
theorem exit0_dst : W4 m ρ c (Proc.devRef .tc main_v6) = dstIdx (W0 m ρ c (Proc.devRef .tc main_arg5)) := (W4_of_ne m ρ c main_v6 (by decide)).trans (entry0_dst m ρ c)
theorem exit0_weights : W4 m ρ c (Proc.devRef .tc main_v30) = (normCol (srcIdx (W0 m ρ c (Proc.devRef .tc main_arg5))) (dstIdx (W0 m ρ c (Proc.devRef .tc main_arg5)))) := (W4_of_ne m ρ c main_v30 (by decide)).trans (entry0_weights m ρ c)
theorem exit0_arg2 : W4 m ρ c (Proc.devRef .tc main_arg2) = (W0 m ρ c (Proc.devRef .tc main_arg2)) := (W4_of_ne m ρ c main_arg2 (by decide)).trans (entry0_arg2 m ρ c)
theorem exit0_arg3 : W4 m ρ c (Proc.devRef .tc main_arg3) = (W0 m ρ c (Proc.devRef .tc main_arg3)) := (W4_of_ne m ρ c main_arg3 (by decide)).trans (entry0_arg3 m ρ c)
theorem exit0_arg4 : W4 m ρ c (Proc.devRef .tc main_arg4) = (W0 m ρ c (Proc.devRef .tc main_arg4)) := (W4_of_ne m ρ c main_arg4 (by decide)).trans (entry0_arg4 m ρ c)

/-! ## At the second region's entry -/

/-- The hidden layer: relu of the first convolution of x · W1. -/
theorem entry1_hidden : W6 m ρ c (Proc.devRef .tc main_v47) = (layer1 (product (M := 100000) (K := 128) (N := 128) (φ₁ := .f32) (φ₂ := .f32) (W0 m ρ c (Proc.devRef .tc main_arg0)) (W0 m ρ c (Proc.devRef .tc main_arg1))) (W0 m ρ c (Proc.devRef .tc main_arg5)) (W0 m ρ c (Proc.devRef .tc main_arg2))) := by
  refine (stageB_hidden (W4 m ρ c)).trans ?_
  rw [exit0_product, exit0_src, exit0_dst, exit0_weights, exit0_arg2]
  rfl

theorem entry1_src : W6 m ρ c (Proc.devRef .tc main_v3) = srcIdx (W0 m ρ c (Proc.devRef .tc main_arg5)) := (stageB_src (W4 m ρ c)).trans (exit0_src m ρ c)
theorem entry1_dst : W6 m ρ c (Proc.devRef .tc main_v6) = dstIdx (W0 m ρ c (Proc.devRef .tc main_arg5)) := (stageB_dst (W4 m ρ c)).trans (exit0_dst m ρ c)
theorem entry1_weights : W6 m ρ c (Proc.devRef .tc main_v30) = (normCol (srcIdx (W0 m ρ c (Proc.devRef .tc main_arg5))) (dstIdx (W0 m ρ c (Proc.devRef .tc main_arg5)))) := (stageB_weights (W4 m ρ c)).trans (exit0_weights m ρ c)
theorem entry1_arg3 : W6 m ρ c (Proc.devRef .tc main_arg3) = (W0 m ρ c (Proc.devRef .tc main_arg3)) := (stageB_arg3 (W4 m ρ c)).trans (exit0_arg3 m ρ c)
theorem entry1_arg4 : W6 m ρ c (Proc.devRef .tc main_arg4) = (W0 m ρ c (Proc.devRef .tc main_arg4)) := (stageB_arg4 (W4 m ρ c)).trans (exit0_arg4 m ρ c)

/-! ## At the second region's exit -/

/-- The second region's result array holds hidden · W2. -/
theorem exit1_product : W7 m ρ c (Proc.devRef .tc main_v48) = (product (M := 100000) (K := 128) (N := 2) (φ₁ := .f32) (φ₂ := .f32) (layer1 (product (M := 100000) (K := 128) (N := 128) (φ₁ := .f32) (φ₂ := .f32) (W0 m ρ c (Proc.devRef .tc main_arg0)) (W0 m ρ c (Proc.devRef .tc main_arg1))) (W0 m ρ c (Proc.devRef .tc main_arg5)) (W0 m ρ c (Proc.devRef .tc main_arg2))) (W0 m ρ c (Proc.devRef .tc main_arg3))) :=
  (W7_arr m ρ c 2).trans ((result1 (V6 m ρ) c).trans
    (congrArg₂ (product (M := 100000) (K := 128) (N := 2) (φ₁ := .f32) (φ₂ := .f32)) (entry1_hidden m ρ c) (entry1_arg3 m ρ c)))

theorem exit1_src : W7 m ρ c (Proc.devRef .tc main_v3) = srcIdx (W0 m ρ c (Proc.devRef .tc main_arg5)) := (W7_of_ne m ρ c main_v3 (by decide)).trans (entry1_src m ρ c)
theorem exit1_dst : W7 m ρ c (Proc.devRef .tc main_v6) = dstIdx (W0 m ρ c (Proc.devRef .tc main_arg5)) := (W7_of_ne m ρ c main_v6 (by decide)).trans (entry1_dst m ρ c)
theorem exit1_weights : W7 m ρ c (Proc.devRef .tc main_v30) = (normCol (srcIdx (W0 m ρ c (Proc.devRef .tc main_arg5))) (dstIdx (W0 m ρ c (Proc.devRef .tc main_arg5)))) := (W7_of_ne m ρ c main_v30 (by decide)).trans (entry1_weights m ρ c)
theorem exit1_arg4 : W7 m ρ c (Proc.devRef .tc main_arg4) = (W0 m ρ c (Proc.devRef .tc main_arg4)) := (W7_of_ne m ρ c main_arg4 (by decide)).trans (entry1_arg4 m ρ c)

/-! ## At the return -/

/-- THE RESULT: log_softmax of the second convolution of hidden · W2, hidden the relu of the first convolution of
    x · W1 — all of the launched arguments. -/
theorem result : W9 m ρ c (Proc.devRef .tc main_v64) = layer2 (product (M := 100000) (K := 128) (N := 2) (φ₁ := .f32) (φ₂ := .f32) (layer1 (product (M := 100000) (K := 128) (N := 128) (φ₁ := .f32) (φ₂ := .f32) (W0 m ρ c (Proc.devRef .tc main_arg0)) (W0 m ρ c (Proc.devRef .tc main_arg1))) (W0 m ρ c (Proc.devRef .tc main_arg5)) (W0 m ρ c (Proc.devRef .tc main_arg2))) (W0 m ρ c (Proc.devRef .tc main_arg3))) (W0 m ρ c (Proc.devRef .tc main_arg5)) (W0 m ρ c (Proc.devRef .tc main_arg4)) := by
  refine (stageC_out (W7 m ρ c)).trans ?_
  rw [exit1_product, exit1_src, exit1_dst, exit1_weights, exit1_arg4]
  rfl

end Cert.KernelIdeal.WholeValue

end
-- ==== Proof.RefStretches.lean ====
/-
  The idealized reference's @main cut into six stretches of host operations.

  The reference is one straight line of 131 host operations. Cut where a value is handed to the next part of the
  computation: the edge index vectors and the first projection; the edge weights; the first convolution with its bias
  and rectifier; the second projection; the edge weights again (the reference computes them once per layer); the
  second convolution with log_softmax. The line is the six stretches one after the other.
-/
import proofs.«121870_j36825049596435_1_alg».proof.Proof.RefOps

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- The edge index vectors with their self-loops, and the first projection x · W1. -/
def edgesOps : List (HloOp τ sig (Elt F)) :=
  [ nullary main_v0 (iotaInDim S100000 32 0),
    unary main_arg5 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg5 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg1 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Degrees, their inverse square roots and the edge weights (first time). -/
def weights1Ops : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- The first convolution of the projected features, its bias and the rectifier. -/
def conv1Ops : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- The second projection hidden · W2. -/
def project2Ops : List (HloOp τ sig (Elt F)) :=
  [ binary main_v47 main_arg3 main_v48 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)) ]

/-- Degrees, their inverse square roots and the edge weights (second time: the same computation again). -/
def weights2Ops : List (HloOp τ sig (Elt F)) :=
  [ nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)) ]

/-- The second convolution, its bias and log_softmax. -/
def conv2Ops : List (HloOp τ sig (Elt F)) :=
  [ nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x2 ![0, 1] bcast_S1700000x1_S1700000x2_0_1 : (⟨S1700000x1, .f32⟩ : BufTy).Contents (Elt F) → (⟨S1700000x2, .f32⟩ : BufTy).Contents (Elt F)),
    binary main_v78 main_v80 main_v81 (mulf : (⟨S1700000x2, .f32⟩ : BufTy).Contents (Elt F) → (⟨S1700000x2, .f32⟩ : BufTy).Contents (Elt F) → (⟨S1700000x2, .f32⟩ : BufTy).Contents (Elt F)),
    nullary main_cst_19 (constant S_ .f32 0x00000000#32),
    unary main_cst_19 main_v82 (broadcastInDim S100000x2 ![] bcast_S_S100000x2 : (⟨S_, .f32⟩ : BufTy).Contents (Elt F) → (⟨S100000x2, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)),
    unary main_arg4 main_v85 (broadcastInDim S1x2 ![1] bcast_S2_S1x2_1 : (⟨S2, .f32⟩ : BufTy).Contents (Elt F) → (⟨S1x2, .f32⟩ : BufTy).Contents (Elt F)),
    unary main_v85 main_v86 (broadcastInDim S100000x2 ![0, 1] bcast_S1x2_S100000x2_0_1 : (⟨S1x2, .f32⟩ : BufTy).Contents (Elt F) → (⟨S100000x2, .f32⟩ : BufTy).Contents (Elt F)),
    binary main_v84 main_v86 main_v87 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call3_cst) (constant S_ .f32 0xFF800000#32),
    TRef.binary (TRef.of (T := ⟨S100000x2, .f32⟩) main_v87) (TRef.of (T := ⟨S_, .f32⟩) main_call3_cst) (TRef.of (T := ⟨S100000, .f32⟩) main_call3_v0) (fun x v => Host.reduce FloatOps.maximumf x v reducesTo_S100000x2_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x2, .f32⟩) main_call3_v4) (broadcastInDim S100000x2 ![0, 1] bcast_S100000x1_S100000x2_0_1),
    TRef.binary (TRef.of (T := ⟨S100000x2, .f32⟩) main_v87) (TRef.of (T := ⟨S100000x2, .f32⟩) main_call3_v4) (TRef.of (T := ⟨S100000x2, .f32⟩) main_call3_v5) subf,
    TRef.unary (TRef.of (T := ⟨S100000x2, .f32⟩) main_call3_v5) (TRef.of (T := ⟨S100000x2, .f32⟩) main_call3_v6) Host.exp,
    TRef.nullary (TRef.of (T := ⟨S_, .f32⟩) main_call3_cst_1) (constant S_ .f32 0x00000000#32),
    TRef.binary (TRef.of (T := ⟨S100000x2, .f32⟩) main_call3_v6) (TRef.of (T := ⟨S_, .f32⟩) main_call3_cst_1) (TRef.of (T := ⟨S100000, .f32⟩) main_call3_v7) (fun x v => Host.reduceAdd x v reducesTo_S100000x2_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x2, .f32⟩) main_call3_v10) (broadcastInDim S100000x2 ![0, 1] bcast_S100000x1_S100000x2_0_1),
    TRef.binary (TRef.of (T := ⟨S100000x2, .f32⟩) main_call3_v5) (TRef.of (T := ⟨S100000x2, .f32⟩) main_call3_v10) (TRef.of (T := ⟨S100000x2, .f32⟩) main_v88) subf ]

set_option maxRecDepth 8192 in
/-- The reference's line of operations is the six stretches in turn. -/
theorem ops_split : (Cert.ReferenceIdeal.RunOps.ops (F := F))
    = edgesOps ++ (weights1Ops ++ (conv1Ops ++ (project2Ops ++ (weights2Ops ++ conv2Ops)))) := rfl

end Cert.ReferenceIdeal.Stretches

end
-- ==== Proof.SpecReference.lean ====
/-
  The two-layer graph convolution as functions of whole arrays (vocabulary of the idealized reference program).

  The edge list e : [2, E] gives source row e[0] and target row e[1]; one self-loop per node is appended to each,
  giving index vectors s, d of length E + N.  A node's degree counts the edges that target it,
      deg = scatter-add of ones at d,      dinv = (deg > 0 ? deg^(-1/2) : 0),
  and every edge carries the weight  norm = dinv[s] * dinv[d]  (negative indices wrapped by N, as indexing does).
  One convolution of projected features xw with bias b is
      conv xw = scatter-add at d of (xw[s] * norm) + b,
  the first layer is relu (conv (x·W1)), the second log_softmax (conv (h·W2)) along the two classes:
      log_softmax z = (z - max z) - log (sum (exp (z - max z))).
  Nothing here reads an element: the functions are compositions of the host's whole-array operations.
-/
import proofs.«121870_j36825049596435_1_alg».proof.Proof.Gen.ReferenceIdeal
import Idealize.ShloMosaic.PureOps.Ideal

noncomputable section

namespace Cert.ReferenceIdeal.Spec

open Cert.ReferenceIdeal Cert.ReferenceIdeal.Gen Idealize.ShloMosaic

/-- Contents of a buffer of shape `s` and element type `e` over the extended reals. -/
abbrev A (s : Shape) (e : EltTy) : Type := (⟨s, e⟩ : BufTy).Contents (Elt Ideal)

/-- Source node of every edge: row 0 of the edge list, then the nodes themselves (the self-loops). -/
def srcIdx (e : A S2x1600000 .i32) : A S1700000 .i32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Target node of every edge: row 1 of the edge list, then the nodes themselves. -/
def dstIdx (e : A S2x1600000 .i32) : A S1700000 .i32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- An index vector as a column. -/
def col (v : A S1700000 .i32) : A S1700000x1 .i32 :=
  broadcastInDim S1700000x1 ![0] bcast_S1700000_S1700000x1_0 v

/-- An index vector with its negative entries moved up by the number of nodes, as a column. -/
def wrap (v : A S1700000 .i32) : A S1700000x1 .i32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- In-degree of every node: one for each edge that targets it. -/
def deg (d : A S1700000 .i32) : A S100000 .f32 :=
  Host.scatterAdd (F := Ideal) scatter_S100000_S1700000x1_S1700000_n_0_0_1
    (broadcastInDim S100000 ![] bcast_S_S100000 (constant (F := Ideal) S_ .f32 0x00000000#32))
    (col d)
    (broadcastInDim S1700000 ![] bcast_S_S1700000 (constant (F := Ideal) S_ .f32 0x3F800000#32))

/-- deg^(-1/2) where the degree is positive, zero elsewhere. -/
def dinv (d : A S1700000 .i32) : A S100000 .f32 :=
  select (cmpf (F := Ideal) (φ := .f32) .ogt (deg d) (broadcastInDim S100000 ![] bcast_S_S100000 (constant (F := Ideal) S_ .f32 0x00000000#32)))
    (Host.rsqrt (F := Ideal) (φ := .f32) (deg d))
    (broadcastInDim S100000 ![] bcast_S_S100000 (id (constant (F := Ideal) S_ .f32 0x00000000#32)))

/-- The weight of every edge: dinv at its source times dinv at its target. -/
def norm (s d : A S1700000 .i32) : A S1700000 .f32 :=
  mulf (F := Ideal) (φ := .f32) (Host.gather gather_S100000_S1700000x1_S1700000_n_0_n_n_0_1_1 (dinv d) (wrap s))
    (Host.gather gather_S100000_S1700000x1_S1700000_n_0_n_n_0_1_1 (dinv d) (wrap d))

/-- The edge weights as a column. -/
def normCol (s d : A S1700000 .i32) : A S1700000x1 .f32 :=
  broadcastInDim S1700000x1 ![0] bcast_S1700000_S1700000x1_0 (norm s d)

/-- One convolution over 128 features: gather the projected rows at the sources, scale by the edge weights,
    add them up at the targets, add the bias row. -/
def conv128 (xw : A S100000x128 .f32) (s d : A S1700000 .i32) (n : A S1700000x1 .f32) (b : A S128 .f32) : A S100000x128 .f32 :=
  addf (F := Ideal) (φ := .f32)
    (Host.scatterAdd (F := Ideal) scatter_S100000x128_S1700000x1_S1700000x128_1_0_0_1
      (broadcastInDim S100000x128 ![] bcast_S_S100000x128 (constant (F := Ideal) S_ .f32 0x00000000#32))
      (col d)
      (mulf (F := Ideal) (φ := .f32) (Host.gather gather_S100000x128_S1700000x1_S1700000x128_1_0_n_n_0_1_1128 xw (wrap s))
        (broadcastInDim S1700000x128 ![0, 1] bcast_S1700000x1_S1700000x128_0_1 n)))
    (broadcastInDim S100000x128 ![0, 1] bcast_S1x128_S100000x128_0_1 (broadcastInDim S1x128 ![1] bcast_S128_S1x128_1 b))

/-- max(z, 0). -/
def relu (z : A S100000x128 .f32) : A S100000x128 .f32 :=
  maximumf (F := Ideal) (φ := .f32) z (broadcastInDim S100000x128 ![] bcast_S_S100000x128 (constant (F := Ideal) S_ .f32 0x00000000#32))

/-- The same convolution over the 2 classes. -/
def conv2 (hw : A S100000x2 .f32) (s d : A S1700000 .i32) (n : A S1700000x1 .f32) (b : A S2 .f32) : A S100000x2 .f32 :=
  addf (F := Ideal) (φ := .f32)
    (Host.scatterAdd (F := Ideal) scatter_S100000x2_S1700000x1_S1700000x2_1_0_0_1
      (broadcastInDim S100000x2 ![] bcast_S_S100000x2 (constant (F := Ideal) S_ .f32 0x00000000#32))
      (col d)
      (mulf (F := Ideal) (φ := .f32) (Host.gather gather_S100000x2_S1700000x1_S1700000x2_1_0_n_n_0_1_12 hw (wrap s))
        (broadcastInDim S1700000x2 ![0, 1] bcast_S1700000x1_S1700000x2_0_1 n)))
    (broadcastInDim S100000x2 ![0, 1] bcast_S1x2_S100000x2_0_1 (broadcastInDim S1x2 ![1] bcast_S2_S1x2_1 b))

/-- z minus its row maximum (the maximum taken from -inf, and once more against -inf). -/
def centered (z : A S100000x2 .f32) : A S100000x2 .f32 :=
  subf (F := Ideal) (φ := .f32) z
    (broadcastInDim S100000x2 ![0, 1] bcast_S100000x1_S100000x2_0_1
      (broadcastInDim S100000x1 ![0] bcast_S100000_S100000x1_0
        (maximumf (F := Ideal) (φ := .f32) (broadcastInDim S100000 ![] bcast_S_S100000 (constant (F := Ideal) S_ .f32 0xFF800000#32))
          (Host.reduce FloatOps.maximumf z (constant (F := Ideal) S_ .f32 0xFF800000#32) reducesTo_S100000x2_S100000_d1 h_S_))))

/-- log_softmax along the classes. -/
def logSoftmax (z : A S100000x2 .f32) : A S100000x2 .f32 :=
  subf (F := Ideal) (φ := .f32) (centered z)
    (broadcastInDim S100000x2 ![0, 1] bcast_S100000x1_S100000x2_0_1
      (Host.log (F := Ideal) (φ := .f32)
        (broadcastInDim S100000x1 ![0] bcast_S100000_S100000x1_0
          (Host.reduceAdd (Host.exp (F := Ideal) (φ := .f32) (centered z)) (constant (F := Ideal) S_ .f32 0x00000000#32) reducesTo_S100000x2_S100000_d1 h_S_))))

/-- The first layer after its projection: relu of the convolution. -/
def layer1 (xw : A S100000x128 .f32) (e : A S2x1600000 .i32) (b : A S128 .f32) : A S100000x128 .f32 :=
  relu (conv128 xw (srcIdx e) (dstIdx e) (normCol (srcIdx e) (dstIdx e)) b)

/-- The second layer after its projection: log_softmax of the convolution. -/
def layer2 (hw : A S100000x2 .f32) (e : A S2x1600000 .i32) (b : A S2 .f32) : A S100000x2 .f32 :=
  logSoftmax (conv2 hw (srcIdx e) (dstIdx e) (normCol (srcIdx e) (dstIdx e)) b)

end Cert.ReferenceIdeal.Spec

end
-- ==== Proof.RefHost.lean ====
/-
  The idealized reference's stretches of host operations, read as whole-array functions.

  Each stretch is read from ARBITRARY starting contents: the buffer it hands on as the specification's function of
  the buffers it reads (a host product as the product array), every buffer a later stretch still needs as it was.
-/
import proofs.«121870_j36825049596435_1_alg».proof.Proof.RefStretches
import proofs.«121870_j36825049596435_1_alg».proof.Proof.SpecReference
import proofs.«121870_j36825049596435_1_alg».proof.Proof.LibStretches
import proofs.«121870_j36825049596435_1_alg».proof.Proof.LibJoinCongr
import proofs.«121870_j36825049596435_1_alg».proof.Proof.LibFoldReads
import proofs.«121870_j36825049596435_1_alg».proof.Proof.LibWholeProduct

set_option maxRecDepth 16384

noncomputable section

namespace Cert.ReferenceIdeal.HostValue

open Cert.ReferenceIdeal Cert.ReferenceIdeal.Gen Idealize.ShloMosaic Idealize.ShloMosaic.TcCoe Idealize.SL.Sem Idealize.ShloMosaic.StableHlo
open Cert.ReferenceIdeal.Stretches Cert.ReferenceIdeal.Spec Cert.LibStretches Cert.LibFoldReads Cert.LibWholeProduct

variable (V : Valuation τ sig (Elt Ideal))

/-! ## Contents carried across a call boundary

A buffer the caller writes and a called function reads through its typed reference (or the other way round) carries its
contents along an equation of buffer types that holds by computation: the transport is the identity. -/

theorem ofBuf_main_cst_2 (p1 p2 p3) (v : (⟨S_, .f32⟩ : BufTy).Contents (Elt Ideal)) :
    (TRef.of (sig := sig) (T := ⟨S_, .f32⟩) main_cst_2 p1 p2 p3).ofBuf v = v := rfl
theorem ofBuf_main_v13 (p1 p2 p3) (v : (⟨S100000, .i1⟩ : BufTy).Contents (Elt Ideal)) :
    (TRef.of (sig := sig) (T := ⟨S100000, .i1⟩) main_v13 p1 p2 p3).ofBuf v = v := rfl
theorem ofBuf_main_v14 (p1 p2 p3) (v : (⟨S100000, .f32⟩ : BufTy).Contents (Elt Ideal)) :
    (TRef.of (sig := sig) (T := ⟨S100000, .f32⟩) main_v14 p1 p2 p3).ofBuf v = v := rfl
theorem toBuf_main_v15 (p1 p2 p3) (v : (⟨S100000, .f32⟩ : BufTy).Contents (Elt Ideal)) :
    (TRef.of (sig := sig) (T := ⟨S100000, .f32⟩) main_v15 p1 p2 p3).toBuf v = v := rfl
theorem ofBuf_main_v46 (p1 p2 p3) (v : (⟨S100000x128, .f32⟩ : BufTy).Contents (Elt Ideal)) :
    (TRef.of (sig := sig) (T := ⟨S100000x128, .f32⟩) main_v46 p1 p2 p3).ofBuf v = v := rfl
theorem toBuf_main_v47 (p1 p2 p3) (v : (⟨S100000x128, .f32⟩ : BufTy).Contents (Elt Ideal)) :
    (TRef.of (sig := sig) (T := ⟨S100000x128, .f32⟩) main_v47 p1 p2 p3).toBuf v = v := rfl
theorem ofBuf_main_cst_12 (p1 p2 p3) (v : (⟨S_, .f32⟩ : BufTy).Contents (Elt Ideal)) :
    (TRef.of (sig := sig) (T := ⟨S_, .f32⟩) main_cst_12 p1 p2 p3).ofBuf v = v := rfl
theorem ofBuf_main_v54 (p1 p2 p3) (v : (⟨S100000, .i1⟩ : BufTy).Contents (Elt Ideal)) :
    (TRef.of (sig := sig) (T := ⟨S100000, .i1⟩) main_v54 p1 p2 p3).ofBuf v = v := rfl
theorem ofBuf_main_v55 (p1 p2 p3) (v : (⟨S100000, .f32⟩ : BufTy).Contents (Elt Ideal)) :
    (TRef.of (sig := sig) (T := ⟨S100000, .f32⟩) main_v55 p1 p2 p3).ofBuf v = v := rfl
theorem toBuf_main_v56 (p1 p2 p3) (v : (⟨S100000, .f32⟩ : BufTy).Contents (Elt Ideal)) :
    (TRef.of (sig := sig) (T := ⟨S100000, .f32⟩) main_v56 p1 p2 p3).toBuf v = v := rfl
theorem ofBuf_main_v87 (p1 p2 p3) (v : (⟨S100000x2, .f32⟩ : BufTy).Contents (Elt Ideal)) :
    (TRef.of (sig := sig) (T := ⟨S100000x2, .f32⟩) main_v87 p1 p2 p3).ofBuf v = v := rfl
theorem toBuf_main_v88 (p1 p2 p3) (v : (⟨S100000x2, .f32⟩ : BufTy).Contents (Elt Ideal)) :
    (TRef.of (sig := sig) (T := ⟨S100000x2, .f32⟩) main_v88 p1 p2 p3).toBuf v = v := rfl

/-! ## The edge index vectors and the first projection -/

theorem edges_src : after (edgesOps (F := Ideal)) V (Proc.devRef .tc main_v3) = srcIdx (V (Proc.devRef .tc main_arg5)) := by
  fold_reads [edgesOps]
  rfl
theorem edges_dst : after (edgesOps (F := Ideal)) V (Proc.devRef .tc main_v6) = dstIdx (V (Proc.devRef .tc main_arg5)) := by
  fold_reads [edgesOps]
  rfl
theorem edges_product : after (edgesOps (F := Ideal)) V (Proc.devRef .tc main_v7)
    = product (M := 100000) (K := 128) (N := 128) (φ₁ := .f32) (φ₂ := .f32) (V (Proc.devRef .tc main_arg0)) (V (Proc.devRef .tc main_arg1)) := by
  fold_reads [edgesOps]
  exact hostDot_eq (M := 100000) (K := 128) (N := 128) none _ _
theorem edges_arg2 : after (edgesOps (F := Ideal)) V (Proc.devRef .tc main_arg2) = V (Proc.devRef .tc main_arg2) := by fold_reads [edgesOps]
theorem edges_arg3 : after (edgesOps (F := Ideal)) V (Proc.devRef .tc main_arg3) = V (Proc.devRef .tc main_arg3) := by fold_reads [edgesOps]
theorem edges_arg4 : after (edgesOps (F := Ideal)) V (Proc.devRef .tc main_arg4) = V (Proc.devRef .tc main_arg4) := by fold_reads [edgesOps]

/-! ## The edge weights, first time -/

theorem weights1_norm : after (weights1Ops (F := Ideal)) V (Proc.devRef .tc main_v30) = norm (V (Proc.devRef .tc main_v3)) (V (Proc.devRef .tc main_v6)) := by
  fold_reads [weights1Ops, ofBuf_toBuf, toBuf_ofBuf, ofBuf_main_cst_2, ofBuf_main_v13, ofBuf_main_v14, toBuf_main_v15]
  rfl
theorem weights1_src : after (weights1Ops (F := Ideal)) V (Proc.devRef .tc main_v3) = V (Proc.devRef .tc main_v3) := by fold_reads [weights1Ops]
theorem weights1_dst : after (weights1Ops (F := Ideal)) V (Proc.devRef .tc main_v6) = V (Proc.devRef .tc main_v6) := by fold_reads [weights1Ops]
theorem weights1_product : after (weights1Ops (F := Ideal)) V (Proc.devRef .tc main_v7) = V (Proc.devRef .tc main_v7) := by fold_reads [weights1Ops]
theorem weights1_arg2 : after (weights1Ops (F := Ideal)) V (Proc.devRef .tc main_arg2) = V (Proc.devRef .tc main_arg2) := by fold_reads [weights1Ops]
theorem weights1_arg3 : after (weights1Ops (F := Ideal)) V (Proc.devRef .tc main_arg3) = V (Proc.devRef .tc main_arg3) := by fold_reads [weights1Ops]
theorem weights1_arg4 : after (weights1Ops (F := Ideal)) V (Proc.devRef .tc main_arg4) = V (Proc.devRef .tc main_arg4) := by fold_reads [weights1Ops]

/-! ## The first convolution, its bias, the rectifier -/

theorem conv1_hidden : after (conv1Ops (F := Ideal)) V (Proc.devRef .tc main_v47)
    = relu (conv128 (V (Proc.devRef .tc main_v7)) (V (Proc.devRef .tc main_v3)) (V (Proc.devRef .tc main_v6)) (broadcastInDim S1700000x1 ![0] bcast_S1700000_S1700000x1_0 (V (Proc.devRef .tc main_v30))) (V (Proc.devRef .tc main_arg2))) := by
  fold_reads [conv1Ops, ofBuf_toBuf, toBuf_ofBuf, ofBuf_main_v46, toBuf_main_v47]
  rfl
theorem conv1_src : after (conv1Ops (F := Ideal)) V (Proc.devRef .tc main_v3) = V (Proc.devRef .tc main_v3) := by fold_reads [conv1Ops]
theorem conv1_dst : after (conv1Ops (F := Ideal)) V (Proc.devRef .tc main_v6) = V (Proc.devRef .tc main_v6) := by fold_reads [conv1Ops]
theorem conv1_arg3 : after (conv1Ops (F := Ideal)) V (Proc.devRef .tc main_arg3) = V (Proc.devRef .tc main_arg3) := by fold_reads [conv1Ops]
theorem conv1_arg4 : after (conv1Ops (F := Ideal)) V (Proc.devRef .tc main_arg4) = V (Proc.devRef .tc main_arg4) := by fold_reads [conv1Ops]

/-! ## The second projection -/

theorem project2_product : after (project2Ops (F := Ideal)) V (Proc.devRef .tc main_v48)
    = product (M := 100000) (K := 128) (N := 2) (φ₁ := .f32) (φ₂ := .f32) (V (Proc.devRef .tc main_v47)) (V (Proc.devRef .tc main_arg3)) := by
  fold_reads [project2Ops]
  exact hostDot_eq (M := 100000) (K := 128) (N := 2) none _ _
theorem project2_src : after (project2Ops (F := Ideal)) V (Proc.devRef .tc main_v3) = V (Proc.devRef .tc main_v3) := by fold_reads [project2Ops]
theorem project2_dst : after (project2Ops (F := Ideal)) V (Proc.devRef .tc main_v6) = V (Proc.devRef .tc main_v6) := by fold_reads [project2Ops]
theorem project2_arg4 : after (project2Ops (F := Ideal)) V (Proc.devRef .tc main_arg4) = V (Proc.devRef .tc main_arg4) := by fold_reads [project2Ops]

/-! ## The edge weights, second time -/

theorem weights2_norm : after (weights2Ops (F := Ideal)) V (Proc.devRef .tc main_v71) = norm (V (Proc.devRef .tc main_v3)) (V (Proc.devRef .tc main_v6)) := by
  fold_reads [weights2Ops, ofBuf_toBuf, toBuf_ofBuf, ofBuf_main_cst_12, ofBuf_main_v54, ofBuf_main_v55, toBuf_main_v56]
  rfl
theorem weights2_src : after (weights2Ops (F := Ideal)) V (Proc.devRef .tc main_v3) = V (Proc.devRef .tc main_v3) := by fold_reads [weights2Ops]
theorem weights2_dst : after (weights2Ops (F := Ideal)) V (Proc.devRef .tc main_v6) = V (Proc.devRef .tc main_v6) := by fold_reads [weights2Ops]
theorem weights2_product : after (weights2Ops (F := Ideal)) V (Proc.devRef .tc main_v48) = V (Proc.devRef .tc main_v48) := by fold_reads [weights2Ops]
theorem weights2_arg4 : after (weights2Ops (F := Ideal)) V (Proc.devRef .tc main_arg4) = V (Proc.devRef .tc main_arg4) := by fold_reads [weights2Ops]

/-! ## The second convolution, its bias, log_softmax -/

theorem conv2_out : after (conv2Ops (F := Ideal)) V (Proc.devRef .tc main_v88)
    = logSoftmax (conv2 (V (Proc.devRef .tc main_v48)) (V (Proc.devRef .tc main_v3)) (V (Proc.devRef .tc main_v6)) (broadcastInDim S1700000x1 ![0] bcast_S1700000_S1700000x1_0 (V (Proc.devRef .tc main_v71))) (V (Proc.devRef .tc main_arg4))) := by
  fold_reads [conv2Ops, ofBuf_toBuf, toBuf_ofBuf, ofBuf_main_v87, toBuf_main_v88]
  rfl

end Cert.ReferenceIdeal.HostValue

end
-- ==== Proof.RefValue.lean ====
/-
  The idealized reference's result as ONE function of its arguments, and its run.

  Follow the line of host operations stretch by stretch from the launch contents: the edge index vectors and x · W1;
  the edge weights; the hidden layer relu (conv (x · W1) + b1); hidden · W2; the edge weights once more (the same
  function of the same index vectors); log_softmax (conv (hidden · W2) + b2). Each stretch reads what the stretches
  before it left, so the result buffer after the whole line is the composition, a function of the six launched
  arguments alone. The line runs to its end from any memory, so every execution of the reference ends with the result
  buffer at that function and the arguments as launched.
-/
import proofs.«121870_j36825049596435_1_alg».proof.Proof.RefHost
import proofs.«121870_j36825049596435_1_alg».proof.Proof.LibKeepThrough

set_option maxRecDepth 16384

noncomputable section

namespace Cert.ReferenceIdeal.WholeValue

open Cert.ReferenceIdeal Cert.ReferenceIdeal.Gen Idealize.ShloMosaic Idealize.ShloMosaic.TcCoe Idealize.SL.Sem Idealize.ShloMosaic.StableHlo
open Cert.ReferenceIdeal.RunOps Cert.ReferenceIdeal.Stretches Cert.ReferenceIdeal.HostValue Cert.ReferenceIdeal.Spec
open Cert.LibWholeProduct Cert.LibStretches Cert.LibKeepThrough

variable (m : (ℓ : Loc nD τ sig) → Buf (Elt Ideal) ℓ) (c : Dev nD)

/-! ## The contents after each stretch -/

abbrev B1 : Valuation τ sig (Elt Ideal) := after (edgesOps (F := Ideal)) (launchContents m c)
abbrev B2 : Valuation τ sig (Elt Ideal) := after (weights1Ops (F := Ideal)) (B1 m c)
abbrev B3 : Valuation τ sig (Elt Ideal) := after (conv1Ops (F := Ideal)) (B2 m c)
abbrev B4 : Valuation τ sig (Elt Ideal) := after (project2Ops (F := Ideal)) (B3 m c)
abbrev B5 : Valuation τ sig (Elt Ideal) := after (weights2Ops (F := Ideal)) (B4 m c)
abbrev B6 : Valuation τ sig (Elt Ideal) := after (conv2Ops (F := Ideal)) (B5 m c)

/-! ### After the first stretch -/
theorem b1_src : B1 m c (Proc.devRef .tc main_v3) = (srcIdx (launchContents m c (Proc.devRef .tc main_arg5))) := edges_src (launchContents m c)
theorem b1_dst : B1 m c (Proc.devRef .tc main_v6) = (dstIdx (launchContents m c (Proc.devRef .tc main_arg5))) := edges_dst (launchContents m c)
theorem b1_product : B1 m c (Proc.devRef .tc main_v7) = (product (M := 100000) (K := 128) (N := 128) (φ₁ := .f32) (φ₂ := .f32) (launchContents m c (Proc.devRef .tc main_arg0)) (launchContents m c (Proc.devRef .tc main_arg1))) := edges_product (launchContents m c)
theorem b1_arg2 : B1 m c (Proc.devRef .tc main_arg2) = (launchContents m c (Proc.devRef .tc main_arg2)) := edges_arg2 (launchContents m c)
theorem b1_arg3 : B1 m c (Proc.devRef .tc main_arg3) = (launchContents m c (Proc.devRef .tc main_arg3)) := edges_arg3 (launchContents m c)
theorem b1_arg4 : B1 m c (Proc.devRef .tc main_arg4) = (launchContents m c (Proc.devRef .tc main_arg4)) := edges_arg4 (launchContents m c)

/-! ### After the edge weights -/
theorem b2_norm : B2 m c (Proc.devRef .tc main_v30) = norm (srcIdx (launchContents m c (Proc.devRef .tc main_arg5))) (dstIdx (launchContents m c (Proc.devRef .tc main_arg5))) := by
  refine (weights1_norm (B1 m c)).trans ?_
  rw [b1_src, b1_dst]
theorem b2_src : B2 m c (Proc.devRef .tc main_v3) = (srcIdx (launchContents m c (Proc.devRef .tc main_arg5))) := (weights1_src (B1 m c)).trans (b1_src m c)
theorem b2_dst : B2 m c (Proc.devRef .tc main_v6) = (dstIdx (launchContents m c (Proc.devRef .tc main_arg5))) := (weights1_dst (B1 m c)).trans (b1_dst m c)
theorem b2_product : B2 m c (Proc.devRef .tc main_v7) = (product (M := 100000) (K := 128) (N := 128) (φ₁ := .f32) (φ₂ := .f32) (launchContents m c (Proc.devRef .tc main_arg0)) (launchContents m c (Proc.devRef .tc main_arg1))) := (weights1_product (B1 m c)).trans (b1_product m c)
theorem b2_arg2 : B2 m c (Proc.devRef .tc main_arg2) = (launchContents m c (Proc.devRef .tc main_arg2)) := (weights1_arg2 (B1 m c)).trans (b1_arg2 m c)
theorem b2_arg3 : B2 m c (Proc.devRef .tc main_arg3) = (launchContents m c (Proc.devRef .tc main_arg3)) := (weights1_arg3 (B1 m c)).trans (b1_arg3 m c)
theorem b2_arg4 : B2 m c (Proc.devRef .tc main_arg4) = (launchContents m c (Proc.devRef .tc main_arg4)) := (weights1_arg4 (B1 m c)).trans (b1_arg4 m c)

/-! ### After the first convolution -/
theorem b3_hidden : B3 m c (Proc.devRef .tc main_v47) = (layer1 (product (M := 100000) (K := 128) (N := 128) (φ₁ := .f32) (φ₂ := .f32) (launchContents m c (Proc.devRef .tc main_arg0)) (launchContents m c (Proc.devRef .tc main_arg1))) (launchContents m c (Proc.devRef .tc main_arg5)) (launchContents m c (Proc.devRef .tc main_arg2))) := by
  refine (conv1_hidden (B2 m c)).trans ?_
  rw [b2_product, b2_src, b2_dst, b2_norm, b2_arg2]
  rfl
theorem b3_src : B3 m c (Proc.devRef .tc main_v3) = (srcIdx (launchContents m c (Proc.devRef .tc main_arg5))) := (conv1_src (B2 m c)).trans (b2_src m c)
theorem b3_dst : B3 m c (Proc.devRef .tc main_v6) = (dstIdx (launchContents m c (Proc.devRef .tc main_arg5))) := (conv1_dst (B2 m c)).trans (b2_dst m c)
theorem b3_arg3 : B3 m c (Proc.devRef .tc main_arg3) = (launchContents m c (Proc.devRef .tc main_arg3)) := (conv1_arg3 (B2 m c)).trans (b2_arg3 m c)
theorem b3_arg4 : B3 m c (Proc.devRef .tc main_arg4) = (launchContents m c (Proc.devRef .tc main_arg4)) := (conv1_arg4 (B2 m c)).trans (b2_arg4 m c)

/-! ### After the second projection -/
theorem b4_product : B4 m c (Proc.devRef .tc main_v48) = (product (M := 100000) (K := 128) (N := 2) (φ₁ := .f32) (φ₂ := .f32) (layer1 (product (M := 100000) (K := 128) (N := 128) (φ₁ := .f32) (φ₂ := .f32) (launchContents m c (Proc.devRef .tc main_arg0)) (launchContents m c (Proc.devRef .tc main_arg1))) (launchContents m c (Proc.devRef .tc main_arg5)) (launchContents m c (Proc.devRef .tc main_arg2))) (launchContents m c (Proc.devRef .tc main_arg3))) := by
  refine (project2_product (B3 m c)).trans ?_
  rw [b3_hidden, b3_arg3]
theorem b4_src : B4 m c (Proc.devRef .tc main_v3) = (srcIdx (launchContents m c (Proc.devRef .tc main_arg5))) := (project2_src (B3 m c)).trans (b3_src m c)
theorem b4_dst : B4 m c (Proc.devRef .tc main_v6) = (dstIdx (launchContents m c (Proc.devRef .tc main_arg5))) := (project2_dst (B3 m c)).trans (b3_dst m c)
theorem b4_arg4 : B4 m c (Proc.devRef .tc main_arg4) = (launchContents m c (Proc.devRef .tc main_arg4)) := (project2_arg4 (B3 m c)).trans (b3_arg4 m c)

/-! ### After the edge weights, again -/
theorem b5_norm : B5 m c (Proc.devRef .tc main_v71) = norm (srcIdx (launchContents m c (Proc.devRef .tc main_arg5))) (dstIdx (launchContents m c (Proc.devRef .tc main_arg5))) := by
  refine (weights2_norm (B4 m c)).trans ?_
  rw [b4_src, b4_dst]
theorem b5_src : B5 m c (Proc.devRef .tc main_v3) = (srcIdx (launchContents m c (Proc.devRef .tc main_arg5))) := (weights2_src (B4 m c)).trans (b4_src m c)
theorem b5_dst : B5 m c (Proc.devRef .tc main_v6) = (dstIdx (launchContents m c (Proc.devRef .tc main_arg5))) := (weights2_dst (B4 m c)).trans (b4_dst m c)
theorem b5_product : B5 m c (Proc.devRef .tc main_v48) = (product (M := 100000) (K := 128) (N := 2) (φ₁ := .f32) (φ₂ := .f32) (layer1 (product (M := 100000) (K := 128) (N := 128) (φ₁ := .f32) (φ₂ := .f32) (launchContents m c (Proc.devRef .tc main_arg0)) (launchContents m c (Proc.devRef .tc main_arg1))) (launchContents m c (Proc.devRef .tc main_arg5)) (launchContents m c (Proc.devRef .tc main_arg2))) (launchContents m c (Proc.devRef .tc main_arg3))) := (weights2_product (B4 m c)).trans (b4_product m c)
theorem b5_arg4 : B5 m c (Proc.devRef .tc main_arg4) = (launchContents m c (Proc.devRef .tc main_arg4)) := (weights2_arg4 (B4 m c)).trans (b4_arg4 m c)

/-! ### After the whole line -/
theorem b6_out : B6 m c (Proc.devRef .tc main_v88) = layer2 (product (M := 100000) (K := 128) (N := 2) (φ₁ := .f32) (φ₂ := .f32) (layer1 (product (M := 100000) (K := 128) (N := 128) (φ₁ := .f32) (φ₂ := .f32) (launchContents m c (Proc.devRef .tc main_arg0)) (launchContents m c (Proc.devRef .tc main_arg1))) (launchContents m c (Proc.devRef .tc main_arg5)) (launchContents m c (Proc.devRef .tc main_arg2))) (launchContents m c (Proc.devRef .tc main_arg3))) (launchContents m c (Proc.devRef .tc main_arg5)) (launchContents m c (Proc.devRef .tc main_arg4)) := by
  refine (conv2_out (B5 m c)).trans ?_
  rw [b5_product, b5_src, b5_dst, b5_norm, b5_arg4]
  rfl

/-- THE RESULT after the whole line of operations. -/
theorem value : after (ops (F := Ideal)) (launchContents m c) (Proc.devRef .tc main_v88) = layer2 (product (M := 100000) (K := 128) (N := 2) (φ₁ := .f32) (φ₂ := .f32) (layer1 (product (M := 100000) (K := 128) (N := 128) (φ₁ := .f32) (φ₂ := .f32) (launchContents m c (Proc.devRef .tc main_arg0)) (launchContents m c (Proc.devRef .tc main_arg1))) (launchContents m c (Proc.devRef .tc main_arg5)) (launchContents m c (Proc.devRef .tc main_arg2))) (launchContents m c (Proc.devRef .tc main_arg3))) (launchContents m c (Proc.devRef .tc main_arg5)) (launchContents m c (Proc.devRef .tc main_arg4)) := by
  rw [ops_split, after_append, after_append, after_append, after_append, after_append]
  exact b6_out m c

/-! ## The arguments are written by no operation -/
theorem kept_arg0 : after (ops (F := Ideal)) (launchContents m c) (Proc.devRef .tc main_arg0) = m ((c.tc : Thread nD τ).loc main_arg0) :=
  (by host_keep ops : after (ops (F := Ideal)) (launchContents m c) (Proc.devRef .tc main_arg0) = launchContents m c (Proc.devRef .tc main_arg0)).trans rfl
theorem kept_arg1 : after (ops (F := Ideal)) (launchContents m c) (Proc.devRef .tc main_arg1) = m ((c.tc : Thread nD τ).loc main_arg1) :=
  (by host_keep ops : after (ops (F := Ideal)) (launchContents m c) (Proc.devRef .tc main_arg1) = launchContents m c (Proc.devRef .tc main_arg1)).trans rfl
theorem kept_arg2 : after (ops (F := Ideal)) (launchContents m c) (Proc.devRef .tc main_arg2) = m ((c.tc : Thread nD τ).loc main_arg2) :=
  (by host_keep ops : after (ops (F := Ideal)) (launchContents m c) (Proc.devRef .tc main_arg2) = launchContents m c (Proc.devRef .tc main_arg2)).trans rfl
theorem kept_arg3 : after (ops (F := Ideal)) (launchContents m c) (Proc.devRef .tc main_arg3) = m ((c.tc : Thread nD τ).loc main_arg3) :=
  (by host_keep ops : after (ops (F := Ideal)) (launchContents m c) (Proc.devRef .tc main_arg3) = launchContents m c (Proc.devRef .tc main_arg3)).trans rfl
theorem kept_arg4 : after (ops (F := Ideal)) (launchContents m c) (Proc.devRef .tc main_arg4) = m ((c.tc : Thread nD τ).loc main_arg4) :=
  (by host_keep ops : after (ops (F := Ideal)) (launchContents m c) (Proc.devRef .tc main_arg4) = launchContents m c (Proc.devRef .tc main_arg4)).trans rfl
theorem kept_arg5 : after (ops (F := Ideal)) (launchContents m c) (Proc.devRef .tc main_arg5) = m ((c.tc : Thread nD τ).loc main_arg5) :=
  (by host_keep ops : after (ops (F := Ideal)) (launchContents m c) (Proc.devRef .tc main_arg5) = launchContents m c (Proc.devRef .tc main_arg5)).trans rfl

/-! ## The run -/

/-- From any memory with zero counters every weakly fair execution of the reference terminates, the result buffer at
    the composed function of the launched arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v88) = layer2 (product (M := 100000) (K := 128) (N := 2) (φ₁ := .f32) (φ₂ := .f32) (layer1 (product (M := 100000) (K := 128) (N := 128) (φ₁ := .f32) (φ₂ := .f32) (launchContents m c (Proc.devRef .tc main_arg0)) (launchContents m c (Proc.devRef .tc main_arg1))) (launchContents m c (Proc.devRef .tc main_arg5)) (launchContents m c (Proc.devRef .tc main_arg2))) (launchContents m c (Proc.devRef .tc main_arg3))) (launchContents m c (Proc.devRef .tc main_arg5)) (launchContents m c (Proc.devRef .tc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (value m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c)⟩)
    (run_seq scopedRefs_eq scopedSems_eq defs main (fun _ => ops) main_eq (fun _ => ops_sub) m ρ)

end Cert.ReferenceIdeal.WholeValue

end
-- ==== Proof.lean ====
/-
  A two-layer graph convolution network: the Pallas kernel against its jnp reference, over the extended reals.

  Both programs compute, for node features x, weights W1, W2, biases b1, b2 and an edge list e,
      log_softmax (conv (relu (conv (x · W1) + b1) · W2) + b2),
  where conv gathers rows at the edges' sources, scales them by the edge weights deg^(-1/2)[src] · deg^(-1/2)[dst]
  and adds them up at the edges' targets (self-loops appended). They differ in two places only. The kernel computes
  the two matrix products in pipelined regions, ten blocks of 10000 rows each, rounding the operands to bf16 on the
  way into the matrix unit; over the extended reals the rounding is the identity and a row of a block's product is
  that row of the whole product, so each region leaves the whole product (RegionProduct). And the kernel computes the
  edge weights once where the reference computes them once per layer: the same function of the same index vectors.
  Everything else is the same host operations in the same order; read stretch by stretch (KernelHost, RefHost) both
  results are the SAME composition of whole-array functions of the arguments (KernelValue, RefValue), written once
  in each program's vocabulary (SpecKernel, SpecReference) — the two spellings agree by unfolding. No law of
  arithmetic is used beyond what a finite sum is, so the precondition is never opened.

  The frames of the two kernel programs are the generated ones; the reference's frame is its run with the result
  dropped; the idealization rewrote nothing, so there is nothing to preserve.
-/
import proofs.«121870_j36825049596435_1_alg».proof.Defs
import proofs.«121870_j36825049596435_1_alg».proof.Proof.Gen.Kernel
import proofs.«121870_j36825049596435_1_alg».proof.Proof.Gen.Kernel.Skeleton
import proofs.«121870_j36825049596435_1_alg».proof.Proof.Gen.Kernel.Launch
import proofs.«121870_j36825049596435_1_alg».proof.Proof.Gen.Kernel.Points
import proofs.«121870_j36825049596435_1_alg».proof.Proof.Gen.Kernel.Frame
import proofs.«121870_j36825049596435_1_alg».proof.Proof.Gen.KernelIdeal
import proofs.«121870_j36825049596435_1_alg».proof.Proof.Gen.KernelIdeal.Skeleton
import proofs.«121870_j36825049596435_1_alg».proof.Proof.Gen.KernelIdeal.Launch
import proofs.«121870_j36825049596435_1_alg».proof.Proof.Gen.KernelIdeal.Points
import proofs.«121870_j36825049596435_1_alg».proof.Proof.Gen.KernelIdeal.Frame
import proofs.«121870_j36825049596435_1_alg».proof.Proof.Gen.ReferenceIdeal
import proofs.«121870_j36825049596435_1_alg».proof.Proof.Gen.Pre_finite_inputs
import proofs.«121870_j36825049596435_1_alg».proof.Proof.KernelRun
import proofs.«121870_j36825049596435_1_alg».proof.Proof.KernelValue
import proofs.«121870_j36825049596435_1_alg».proof.Proof.RefValue
import Idealize.ShloMosaic.Adequacy
import Idealize.ShloMosaic.Init

noncomputable section

namespace Cert.Proof

open Idealize.ShloMosaic Idealize.ShloMosaic.StableHlo Idealize.SL.Sem Cert.LibWholeProduct

/-! ## One specification, two vocabularies -/

/-- The hidden layer spelt with the kernel's shape records is the hidden layer spelt with the reference's. -/
theorem layer1_same (xw : Cert.KernelIdeal.Spec.A Cert.KernelIdeal.S100000x128 .f32) (e : Cert.KernelIdeal.Spec.A Cert.KernelIdeal.S2x1600000 .i32)
    (b : Cert.KernelIdeal.Spec.A Cert.KernelIdeal.S128 .f32) : Cert.ReferenceIdeal.Spec.layer1 xw e b = Cert.KernelIdeal.Spec.layer1 xw e b := rfl

/-- The output layer spelt with the kernel's shape records is the output layer spelt with the reference's. -/
theorem layer2_same (hw : Cert.KernelIdeal.Spec.A Cert.KernelIdeal.S100000x2 .f32) (e : Cert.KernelIdeal.Spec.A Cert.KernelIdeal.S2x1600000 .i32)
    (b : Cert.KernelIdeal.Spec.A Cert.KernelIdeal.S2 .f32) : Cert.ReferenceIdeal.Spec.layer2 hw e b = Cert.KernelIdeal.Spec.layer2 hw e b := rfl

/-- On equal arguments the reference's composition is the kernel's. -/
theorem same_result
    (x x' : Cert.KernelIdeal.Spec.A Cert.KernelIdeal.S100000x128 .f32) (w1 w1' : Cert.KernelIdeal.Spec.A Cert.KernelIdeal.S128x128 .f32)
    (b1 b1' : Cert.KernelIdeal.Spec.A Cert.KernelIdeal.S128 .f32) (w2 w2' : Cert.KernelIdeal.Spec.A Cert.KernelIdeal.S128x2 .f32)
    (b2 b2' : Cert.KernelIdeal.Spec.A Cert.KernelIdeal.S2 .f32) (e e' : Cert.KernelIdeal.Spec.A Cert.KernelIdeal.S2x1600000 .i32)
    (hx : x' = x) (hw1 : w1' = w1) (hb1 : b1' = b1) (hw2 : w2' = w2) (hb2 : b2' = b2) (he : e' = e) :
    Cert.ReferenceIdeal.Spec.layer2 (product (M := 100000) (K := 128) (N := 2) (φ₁ := .f32) (φ₂ := .f32)
        (Cert.ReferenceIdeal.Spec.layer1 (product (M := 100000) (K := 128) (N := 128) (φ₁ := .f32) (φ₂ := .f32) x' w1') e' b1') w2') e' b2'
      = Cert.KernelIdeal.Spec.layer2 (product (M := 100000) (K := 128) (N := 2) (φ₁ := .f32) (φ₂ := .f32)
        (Cert.KernelIdeal.Spec.layer1 (product (M := 100000) (K := 128) (N := 128) (φ₁ := .f32) (φ₂ := .f32) x w1) e b1) w2) e b2 := by
  subst hx hw1 hb1 hw2 hb2 he
  rw [layer1_same, layer2_same]

/-! ## The claims -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.WholeValue.run m ρ)

/-- The idealization rewrote no operation. -/
theorem preserves : Cert.preserves_Kernel_KernelIdeal := trivial

/-- Both idealized programs end at the same composition of whole-array functions of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W9 (F := Ideal) m ρ c (Proc.devRef .tc Cert.KernelIdeal.main_v64),
    Cert.KernelIdeal.RunV.run_named m ρ, ?_⟩
  refine (θ_run Cert.ReferenceIdeal.defs _ _).mono (fun _ h c => ⟨(h c).1.trans ?_, (h c).2⟩)
    (Cert.ReferenceIdeal.WholeValue.run m' ρ')
  refine Eq.trans ?_ (Cert.KernelIdeal.WholeValue.result m ρ c).symm
  exact same_result _ _ _ _ _ _ _ _ _ _ _ _ (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
